-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S800000x128 .f32) (main_arg1 : FVec F S50000x128 .f32) (main_arg2 : IVec S800000 32) (main_arg3 : FVec F S128x256 .f32) (main_arg4 : FVec F S128 .f32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S800000x128 : Shape := ⟨2, ![800000, 128]⟩
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩
abbrev S800000x1 : Shape := ⟨2, ![800000, 1]⟩
abbrev S128x128 : Shape := ⟨2, ![128, 128]⟩
abbrev S1x128 : Shape := ⟨2, ![1, 128]⟩
abbrev S5000x128 : Shape := ⟨2, ![5000, 128]⟩

abbrev nBuf : Space → Nat
  | .hbm => 17
  | .vmem => 9
  | .smem => 0
  | _ => 0

abbrev bufTy : (tb : Table) → Fin (tcTables nBuf tb) → BufTy
  | .hbm, ⟨0, _⟩ => ⟨S800000x128, .f32⟩
  | .hbm, ⟨1, _⟩ => ⟨S50000x128, .f32⟩
  | .hbm, ⟨2, _⟩ => ⟨S800000, .i32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S50000x128, .f32⟩
  | .hbm, ⟨7, _⟩ => ⟨S800000x1, .i32⟩
  | .hbm, ⟨8, _⟩ => ⟨S50000x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .bf16⟩
  | .hbm, ⟨13, _⟩ => ⟨S128x128, .f32⟩
  | .hbm, ⟨14, _⟩ => ⟨S128x128, .bf16⟩
  | .hbm, ⟨15, _⟩ => ⟨S1x128, .f32⟩
  | .hbm, ⟨16, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  slices_S128x256_S128x128_0_0 : S128x256.Slices ![0, 0] S128x128
  slices_S128x256_S128x128_0_128 : S128x256.Slices ![0, 128] S128x128
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S800000x128 : Shape := ⟨2, ![800000, 128]⟩
abbrev S50000x128 : Shape := ⟨2, ![50000, 128]⟩
abbrev S800000 : Shape := ⟨1, ![800000]⟩
abbrev S128x256 : Shape := ⟨2, ![128, 256]⟩
abbrev S128 : Shape := ⟨1, ![128]⟩
abbrev S_ : Shape := ⟨0, ![]⟩
abbrev S800000x1 : Shape := ⟨2, ![800000, 1]⟩
abbrev S50000x256 : Shape := ⟨2, ![50000, 256]⟩
abbrev S256x128 : Shape := ⟨2, ![256, 128]⟩
abbrev S1x128 : Shape := ⟨2, ![1, 128]⟩

abbrev nBuf : Space → Nat
  | .hbm => 18
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S50000x128, .f32⟩
  | .hbm, ⟨2, _⟩ => ⟨S800000, .i32⟩
  | .hbm, ⟨3, _⟩ => ⟨S128x256, .f32⟩
  | .hbm, ⟨4, _⟩ => ⟨S128, .f32⟩
  | .hbm, ⟨5, _⟩ => ⟨S_, .f32⟩
  | .hbm, ⟨6, _⟩ => ⟨S50000x128, .f32⟩
  | .hbm, ⟨7, _⟩ => ⟨S800000x1, .i32⟩
  | .hbm, ⟨8, _⟩ => ⟨S50000x128, .f32⟩
  | .hbm, ⟨9, _⟩ => ⟨S50000x256, .f32⟩
  | .hbm, ⟨10, _⟩ => ⟨S256x128, .f32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S50000x128, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«165072_j7387343749430_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.TileValue.lean ====
/-
  What one tile of the kernel computes, read at an entry.

  A tile holds 5000 node rows. From the tile's feature block X (5000 x 128), its aggregate block A (5000 x 128), the
  two weight panels P and Q (each 128 x 128, already laid out rows = input column, columns = output channel) and the
  bias as a 1 x 128 row r, the body stores

      T(p, q) = max( Σ_k X(p, k) · P(k, q)  +  Σ_k A(p, k) · Q(k, q)  +  r(0, q) ,  0 ).

  At the exact instance the narrowing of X and A to the matrix unit's input format is the identity, each product into
  a zero accumulator is the plain contraction over k, and the bias row repeated down the tile reads its entry (0, q).
-/
import proofs.«165072_j7387343749430_2_alg».proof.Proof.Gen.KernelIdeal.Skeleton
import proofs.«165072_j7387343749430_2_alg».proof.Proof.LibMatmul
import proofs.«165072_j7387343749430_2_alg».proof.Proof.LibRank2

noncomputable section

namespace Cert.KernelIdeal.Tile

open Cert.KernelIdeal Cert.KernelIdeal.Gen Idealize.ShloMosaic Idealize.ShloMosaic.ValueIdx

/-- One product of the tile, a 5000 x 128 block times a 128 x 128 panel into zeros, at entry (p, q). -/
theorem product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) :=
  Cert.MatmulAt.matmul_zero_plain_apply Facts₀.dot_S5000x128_S128x128_S5000x128_1_0_0_1_n_n_wf none a w p q

/-- The stored tile at entry (p, q). -/
theorem payload_apply (x0 x1 : FVec Ideal S5000x128 .f32) (x2 x3 : FVec Ideal S128x128 .bf16) (x4 : FVec Ideal S1x128 .f32)
    (p : Fin 5000) (q : Fin 128) :
    k0_pay1 (F := Ideal) x0 x1 x2 x3 x4 (ix2 p q)
      = max (((∑ k : Fin 128, x0 (ix2 p k) * x2 (ix2 k q)) + (∑ k : Fin 128, x1 (ix2 p k) * x3 (ix2 k q)))
              + x4 (ix2 (0 : Fin 1) q))
          (Ideal.ofBits .f32 0x00000000#32) := by
  unfold k0_pay1
  rw [maximumf_apply, addf_apply, addf_apply, product_apply, product_apply, Cert.Rank2.rowBias_vec_apply, broadcast_apply]
  simp only [truncf_apply, shapeCast_self]
  rfl

end Cert.KernelIdeal.Tile

end
-- ==== Proof.NodeUpdate.lean ====
/-
  The node update of one message-passing layer, as ONE function of its arrays.

  Every node n has a feature row x(n, ·) of 128 entries and an aggregate row a(n, ·) of 128 entries (the sum of the
  edge embeddings that arrive at n). The layer is a dense map of the 256 joined entries followed by a ramp:

      out(n, j) = max( Σ_{k<128} x(n, k) · W(j, k)  +  Σ_{k<128} a(n, k) · W(j, 128 + k)  +  b(j) ,  0 )

  with W a 128 x 256 weight matrix whose ROWS are the output channels, and b a bias of 128 entries.
  The same number is reached by first joining the two rows into one row of 256 entries and contracting it with a whole
  row of W: a sum over 256 columns is the sum over the first 128 plus the sum over the last 128. That holds in any
  commutative monoid, so on the extended reals it needs no finiteness of the terms.
-/
import Mathlib.Algebra.BigOperators.Fin
import Idealize.ShloMosaic.PureOps.Ideal
import Idealize.ShloMosaic.Lib.ValueIdx

noncomputable section

namespace Cert.NodeUpdate

open Idealize.ShloMosaic Idealize.ShloMosaic.ValueIdx

/-- Column k of the feature half of a weight row. -/
def colX (k : Fin 128) : Fin 256 := ⟨k.val, by omega⟩

/-- Column k of the aggregate half of a weight row: it sits 128 places further along. -/
def colAgg (k : Fin 128) : Fin 256 := ⟨128 + k.val, by omega⟩

/-- A sum over the 256 columns is the sum over the first 128 plus the sum over the last 128. -/
theorem sum_two_halves {M : Type*} [AddCommMonoid M] (f : Fin 256 → M) :
    ∑ k : Fin 256, f k = (∑ k : Fin 128, f (colX k)) + ∑ k : Fin 128, f (colAgg k) :=
  Fin.sum_univ_add (a := 128) (b := 128) f

/-- Entry (n, j) of the layer's result: the two half contractions, the bias, the ramp. -/
def nodeUpdateAt (x agg : (⟨2, ![50000, 128]⟩ : Shape).Idx → EReal) (W : (⟨2, ![128, 256]⟩ : Shape).Idx → EReal)
    (b : (⟨1, ![128]⟩ : Shape).Idx → EReal) (n : Fin 50000) (j : Fin 128) : EReal :=
  max (((∑ k : Fin 128, x (ix2 n k) * W (ix2 j (colX k))) + (∑ k : Fin 128, agg (ix2 n k) * W (ix2 j (colAgg k))))
        + b (ix1 j))
      (Ideal.ofBits .f32 0x00000000#32)

/-- The layer's result as a whole array. -/
def nodeUpdate (x agg : (⟨2, ![50000, 128]⟩ : Shape).Idx → EReal) (W : (⟨2, ![128, 256]⟩ : Shape).Idx → EReal)
    (b : (⟨1, ![128]⟩ : Shape).Idx → EReal) : (⟨2, ![50000, 128]⟩ : Shape).Idx → EReal :=
  fun i => nodeUpdateAt x agg W b (i 0) (i 1)

theorem nodeUpdate_apply (x agg : (⟨2, ![50000, 128]⟩ : Shape).Idx → EReal) (W : (⟨2, ![128, 256]⟩ : Shape).Idx → EReal)
    (b : (⟨1, ![128]⟩ : Shape).Idx → EReal) (n : Fin 50000) (j : Fin 128) :
    nodeUpdate x agg W b (ix2 n j) = nodeUpdateAt x agg W b n j := rfl

end Cert.NodeUpdate

end
-- ==== Proof.TileMeetsUpdate.lean ====
/-
  A stored tile entry is an entry of the node update.

  Take a tile position y = (p, q) and an array position i = (n, j) with the same column, j = q. If along row p the
  tile's feature block and aggregate block hold row n of the feature array X and of the aggregate array A, if the two
  panels hold the two halves of the weight rows (P(k, q) = W(q, k), Q(k, q) = W(q, 128 + k)), and if the bias row holds
  the bias, then what the body stores at y is the node update of X, A, W, b at i: both are

      max( Σ_k X(n, k) · W(j, k)  +  Σ_k A(n, k) · W(j, 128 + k)  +  b(j) ,  0 ).
-/
import proofs.«165072_j7387343749430_2_alg».proof.Proof.TileValue
import proofs.«165072_j7387343749430_2_alg».proof.Proof.NodeUpdate

noncomputable section

namespace Cert.KernelIdeal.Tile

open Cert.KernelIdeal Cert.KernelIdeal.Gen Idealize.ShloMosaic Idealize.ShloMosaic.ValueIdx Cert.NodeUpdate

theorem entry_eq_nodeUpdate (X A : FVec Ideal S50000x128 .f32) (W : FVec Ideal S128x256 .f32) (b : FVec Ideal S128 .f32)
    (x0 x1 : FVec Ideal S5000x128 .f32) (x2 x3 : FVec Ideal S128x128 .bf16) (x4 : FVec Ideal S1x128 .f32)
    (y : S5000x128.Idx) (i : S50000x128.Idx)
    (hcol : (i 1).val = (y 1).val)
    (h0 : ∀ k : Fin 128, x0 (ix2 (y 0) k) = X (ix2 (i 0) k))
    (h1 : ∀ k : Fin 128, x1 (ix2 (y 0) k) = A (ix2 (i 0) k))
    (h2 : ∀ k q : Fin 128, x2 (ix2 k q) = W (ix2 q (colX k)))
    (h3 : ∀ k q : Fin 128, x3 (ix2 k q) = W (ix2 q (colAgg k)))
    (h4 : ∀ q : Fin 128, x4 (ix2 (0 : Fin 1) q) = b (ix1 q)) :
    k0_pay1 (F := Ideal) x0 x1 x2 x3 x4 y = nodeUpdate X A W b i := by
  obtain ⟨p, q, rfl⟩ : ∃ (p : Fin 5000) (q : Fin 128), y = ix2 p q := ⟨y 0, y 1, eq_ix2 y⟩
  have hq : i 1 = q := Fin.ext hcol
  rw [payload_apply]
  unfold nodeUpdate nodeUpdateAt
  rw [hq]
  simp only [h0, h1, h2, h3, h4]

end Cert.KernelIdeal.Tile

end
-- ==== Proof.RegionEntry.lean ====
/-
  What the tiles read: the arrays as the host operations leave them when the tiled computation starts.

  * the aggregate: the edge rows added into an array of zeros at the rows their destination words name. Both programs
    form it by the same operation on the same operands, so it is the same array on both sides;
  * the feature panel P: the first 128 columns of the weight matrix W, transposed, so P(k, q) = W(q, k);
  * the aggregate panel Q: the last 128 columns of W, transposed, so Q(k, q) = W(q, 128 + k);
  * the bias as a 1 x 128 row r, r(0, q) = b(q).
  The narrowing of the panels to the matrix unit's input format is the identity at the exact instance.
-/
import proofs.«165072_j7387343749430_2_alg».proof.Proof.Gen.KernelIdeal.Frame
import proofs.«165072_j7387343749430_2_alg».proof.Proof.NodeUpdate
import Idealize.ShloMosaic.Lib.StableHlo.Run
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.TcCoe Idealize.ShloMosaic.ValueIdx
open Idealize.ShloMosaic.StableHlo Cert.NodeUpdate

/-- The aggregate array of edge rows `h` by destination words `dst`: the rows added into zeros. -/
def aggregate (h : FVec Ideal S800000x128 .f32) (dst : IVec S800000 32) : FVec Ideal S50000x128 .f32 :=
  Host.scatterAdd scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 dst) h

/-- The feature panel of a weight matrix. -/
def panelX (W : FVec Ideal S128x256 .f32) : FVec Ideal S128x128 .bf16 :=
  truncf .bf16 (transpose S128x128 [1, 0] (extractStridedSlice S128x128 ![0, 0] W Facts₀.slices_S128x256_S128x128_0_0)
    Facts₀.transposes_S128x128_S128x128_1_0) Facts₀.bitsLt_bf16_f32

/-- The aggregate panel of a weight matrix. -/
def panelAgg (W : FVec Ideal S128x256 .f32) : FVec Ideal S128x128 .bf16 :=
  truncf .bf16 (transpose S128x128 [1, 0] (extractStridedSlice S128x128 ![0, 128] W Facts₀.slices_S128x256_S128x128_0_128)
    Facts₀.transposes_S128x128_S128x128_1_0) Facts₀.bitsLt_bf16_f32

/-- P(k, q) = W(q, k). -/
theorem panelX_apply (W : FVec Ideal S128x256 .f32) (k q : Fin 128) : panelX W (ix2 k q) = W (ix2 q (colX k)) := by
  unfold panelX
  rw [truncf_apply]
  refine (transpose_apply [1, 0] _ Facts₀.transposes_S128x128_S128x128_1_0 (ix2 k q) (ix2 q k)
    (fun b => match b with | ⟨0, _⟩ => rfl | ⟨1, _⟩ => rfl)).trans ?_
  exact slice2_axis1_apply 0 W Facts₀.slices_S128x256_S128x128_0_0 q k (colX k) (Nat.zero_add _).symm

/-- Q(k, q) = W(q, 128 + k). -/
theorem panelAgg_apply (W : FVec Ideal S128x256 .f32) (k q : Fin 128) : panelAgg W (ix2 k q) = W (ix2 q (colAgg k)) := by
  unfold panelAgg
  rw [truncf_apply]
  refine (transpose_apply [1, 0] _ Facts₀.transposes_S128x128_S128x128_1_0 (ix2 k q) (ix2 q k)
    (fun b => match b with | ⟨0, _⟩ => rfl | ⟨1, _⟩ => rfl)).trans ?_
  exact slice2_axis1_apply 128 W Facts₀.slices_S128x256_S128x128_0_128 q k (colAgg k) rfl

variable (m : (ℓ : Loc nD τ sig) → Buf (Elt Ideal) ℓ)

/-- The tiles' second operand is the aggregate of the launched edge rows and destination words. -/
theorem V_aggregate (c : Dev nD) :
    (V m c main_v2 : S50000x128.Idx → EReal)
      = aggregate (m ((c : Thread nD τ).loc main_arg0)) (m ((c : Thread nD τ).loc main_arg2)) := by
  dsimp only [Gen.V, Gen.hostOps0]; after_results; rfl

/-- The tiles' third operand is the feature panel of the launched weights. -/
theorem V_panelX (c : Dev nD) :
    (V m c main_v6 : S128x128.Idx → EReal) = panelX (m ((c : Thread nD τ).loc main_arg3)) := by
  dsimp only [Gen.V, Gen.hostOps0]; after_results; rfl

/-- The tiles' fourth operand is the aggregate panel of the launched weights. -/
theorem V_panelAgg (c : Dev nD) :
    (V m c main_v8 : S128x128.Idx → EReal) = panelAgg (m ((c : Thread nD τ).loc main_arg3)) := by
  dsimp only [Gen.V, Gen.hostOps0]; after_results; rfl

/-- The tiles' fifth operand is the launched bias as a 1 x 128 row. -/
theorem V_biasRow (c : Dev nD) :
    (V m c main_v9 : S1x128.Idx → EReal)
      = shapeCast S1x128 (m ((c : Thread nD τ).loc main_arg4)) Facts₀.shapeCasts_S128_S1x128 := by
  dsimp only [Gen.V, Gen.hostOps0]; after_results; rfl

/-- r(u, q) = b(q). -/
theorem biasRow_apply (b : FVec Ideal S128 .f32) (u : Fin 1) (q : Fin 128) :
    shapeCast S1x128 b Facts₀.shapeCasts_S128_S1x128 (ix2 u q) = b (ix1 q) :=
  shapeCast_a_1a_apply b Facts₀.shapeCasts_S128_S1x128 u q

end Cert.KernelIdeal.Entry

end
-- ==== Proof.KernelValue.lean ====
/-
  The kernel's result array is the node update.

  The node rows are cut into 10 tiles of 5000 rows. At tile t the body reads rows 5000·t … 5000·t + 4999 of the feature
  array and of the aggregate array, the two weight panels and the bias row whole (their one block, at every tile), and
  writes rows 5000·t … 5000·t + 4999 of the result. So what tile t writes back is block t of the node update of the
  arrays the tiles find; the 10 blocks cover every row (row n lies in tile n / 5000); hence after the run the result
  array IS the node update of the launched features, the aggregate of the launched edge rows, the launched weights and
  the launched bias.
-/
import proofs.«165072_j7387343749430_2_alg».proof.Proof.Gen.KernelIdeal.Value
import proofs.«165072_j7387343749430_2_alg».proof.Proof.TileMeetsUpdate
import proofs.«165072_j7387343749430_2_alg».proof.Proof.RegionEntry

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx Cert.NodeUpdate
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- Where each window's block sits at tile t: the row blocks of the features, the aggregate and the result are block t;
    every other coordinate of every window is block 0. -/
theorem block_positions : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row p of tile t's block of any array of 50000 rows, read through the aggregate's window, is row 5000·t + p of that
    array: the same row the result's block has at p. -/
theorem aggregateBlock_row (c : Dev nD) (A : Buf (Elt Ideal) ((c : Thread nD τ).loc main_v2)) (t : Fin cfg0.N)
    (j : S5000x128.Idx) (k : Fin 128) :
    ((cfg0.win 1).blk t).view.read (Elt Ideal) A (ix2 (j 0) k) = A (ix2 ((((cfg0.win 5).blk t).view.emb j) 0) k) := by
  obtain ⟨e50, e51, e00, e01, e10, e11, -⟩ := block_positions t
  show A (((cfg0.win 1).blk t).view.emb (ix2 (j 0) k)) = A (ix2 ((((cfg0.win 5).blk t).view.emb j) 0) k)
  refine congrArg A (funext fun a => Fin.ext ?_)
  match a with
  | ⟨0, _⟩ => show win0_1.index t (0 : Fin 2) * 5000 + 1 * (j 0).val = win0_5.index t (0 : Fin 2) * 5000 + 1 * (j 0).val; omega
  | ⟨1, _⟩ => show win0_1.index t (1 : Fin 2) * 128 + 1 * k.val = k.val; omega

/-- The node update of the arrays as the tiles find them. -/
def found (c : Dev nD) : S50000x128.Idx → EReal :=
  nodeUpdate (V m c main_arg1) (V m c main_v2) (m ((c : Thread nD τ).loc main_arg3)) (m ((c : Thread nD τ).loc main_arg4))

/-- What tile t writes back is block t of the node update. -/
theorem flushed_eq (c : Dev nD) (t : Fin cfg0.N) :
    (dats m 0 c).flushed 5 t = ((cfg0.win 5).blk t).view.read (Elt Ideal) (found m c) := by
  rw [Cert.KernelIdeal.Value.flushed5]
  unfold out0_5
  rw [View.canon_unit_zero origin_zero]
  simp only [View.ld_unit_zero (S := S5000x128) origin_zero, View.ld_unit_zero (S := S128x128) origin_zero,
    View.ld_unit_zero (S := S1x128) origin_zero]
  obtain ⟨e50, e51, e00, e01, e10, e11, e20, e21, e30, e31, e40, e41⟩ := block_positions t
  funext j
  show k0_pay1 (F := Ideal) (iblk m c 0 t) (iblk m c 1 t) (iblk m c 2 t) (iblk m c 3 t) (iblk m c 4 t) j
    = found m c (((cfg0.win 5).blk t).view.emb j)
  refine Tile.entry_eq_nodeUpdate (V m c main_arg1) (V m c main_v2) (m ((c : Thread nD τ).loc main_arg3))
    (m ((c : Thread nD τ).loc main_arg4)) (iblk m c 0 t) (iblk m c 1 t) (iblk m c 2 t) (iblk m c 3 t) (iblk m c 4 t) j
    (((cfg0.win 5).blk t).view.emb j) ?_ ?_ ?_ ?_ ?_ ?_
  · show win0_5.index t (1 : Fin 2) * 128 + 1 * (j 1).val = (j 1).val
    omega
  · intro k
    show V m c main_arg1 (((cfg0.win 0).blk t).view.emb (ix2 (j 0) k)) = V m c main_arg1 (ix2 ((((cfg0.win 5).blk t).view.emb j) 0) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    unfold iblk
    exact aggregateBlock_row c (V m c main_v2) t j k
  · intro k q
    have e : ((cfg0.win 2).blk t).view.emb (ix2 k q) = ix2 k q := funext fun a => Fin.ext (by
      match a with
      | ⟨0, _⟩ => show win0_2.index t (0 : Fin 2) * 128 + 1 * k.val = k.val; omega
      | ⟨1, _⟩ => show win0_2.index t (1 : Fin 2) * 128 + 1 * q.val = q.val; omega)
    show V m c main_v6 (((cfg0.win 2).blk t).view.emb (ix2 k q)) = _
    rw [e]
    exact (congrFun (Entry.V_panelX m c) (ix2 k q)).trans (Entry.panelX_apply _ k q)
  · intro k q
    have e : ((cfg0.win 3).blk t).view.emb (ix2 k q) = ix2 k q := funext fun a => Fin.ext (by
      match a with
      | ⟨0, _⟩ => show win0_3.index t (0 : Fin 2) * 128 + 1 * k.val = k.val; omega
      | ⟨1, _⟩ => show win0_3.index t (1 : Fin 2) * 128 + 1 * q.val = q.val; omega)
    show V m c main_v8 (((cfg0.win 3).blk t).view.emb (ix2 k q)) = _
    rw [e]
    exact (congrFun (Entry.V_panelAgg m c) (ix2 k q)).trans (Entry.panelAgg_apply _ k q)
  · intro q
    have e : ((cfg0.win 4).blk t).view.emb (ix2 (0 : Fin 1) q) = ix2 (0 : Fin 1) q := funext fun a => Fin.ext (by
      match a with
      | ⟨0, _⟩ => show win0_4.index t (0 : Fin 2) * 1 + 1 * 0 = 0; omega
      | ⟨1, _⟩ => show win0_4.index t (1 : Fin 2) * 128 + 1 * q.val = q.val; omega)
    show V m c main_v9 (((cfg0.win 4).blk t).view.emb (ix2 (0 : Fin 1) q)) = _
    rw [e]
    exact (congrFun (Entry.V_biasRow m c) (ix2 (0 : Fin 1) q)).trans (Entry.biasRow_apply _ 0 q)

/-- An array index lies in tile t's block iff each coordinate lies in the block's range on its axis. -/
theorem mem_block (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v10).slice (win0_5.rect t)).set ↔ _
  rw [View.set_slice_whole, Rect.mem_set_unit]
  exact Iff.rfl

/-- Every array index lies in the block of the tile its row falls in. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [N_0]; omega⟩, rfl⟩
  obtain ⟨e50, e51, -⟩ := block_positions t
  refine ⟨t, flush0_5 t, ?_⟩
  rw [mem_block]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-- The result array after the run is the node update of the arrays the tiles find. -/
theorem final (c : Dev nD) : (dats m 0 c).arrAt 5 cfg0.N = found m c :=
  (dats m 0 c).arrAt_eq_of_cover 5 (found m c) (fun t _ => flushed_eq m c t) cover

/-- The node update of the LAUNCHED arrays: the features, the aggregate of the edge rows, the weights, the bias. -/
def result (c : Dev nD) : S50000x128.Idx → EReal :=
  nodeUpdate (m ((c : Thread nD τ).loc main_arg1))
    (Entry.aggregate (m ((c : Thread nD τ).loc main_arg0)) (m ((c : Thread nD τ).loc main_arg2)))
    (m ((c : Thread nD τ).loc main_arg3)) (m ((c : Thread nD τ).loc main_arg4))

theorem found_eq_result (c : Dev nD) : found m c = result m c := by
  unfold found result
  rw [V_main_arg1, Entry.V_aggregate]

/-- The kernel's run with its result named: every weakly fair execution terminates with the result array at the node
    update of the launched arrays and the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (final m c)).trans (found_eq_result m c), (h c).2⟩)
    (Cert.KernelIdeal.Value.run_blocks m ρ)

end Cert.KernelIdeal.Tiles

end
-- ==== Proof.ReferenceValue.lean ====
/-
  The reference computes the node update.

  The reference joins each node's feature row and aggregate row into one row of 256 entries, contracts it with the
  whole weight row of each output channel (the weight matrix transposed, so that entry (k, j) of the right operand
  is W(j, k)), adds the bias broadcast down the rows, and applies the ramp. Splitting the sum over the 256 joined
  columns into its first and last 128 columns, the first half reads the feature row and columns 0..127 of W, the second
  half reads the aggregate row and columns 128..255 of W: the two half contractions of the specification.
-/
import proofs.«165072_j7387343749430_2_alg».proof.Proof.Gen.ReferenceIdeal.Read
import proofs.«165072_j7387343749430_2_alg».proof.Proof.NodeUpdate
import proofs.«165072_j7387343749430_2_alg».proof.Proof.LibRank2

noncomputable section

namespace Cert.ReferenceIdeal.RefValue

open Cert.ReferenceIdeal Cert.ReferenceIdeal.Gen Cert.ReferenceIdeal.Read Idealize.ShloMosaic Idealize.ShloMosaic.ValueIdx
open Cert.NodeUpdate

/-- The reference's contraction at (n, j): the feature half plus the aggregate half. -/
theorem contraction_apply (h : FVec Ideal S800000x128 .f32) (x : FVec Ideal S50000x128 .f32) (dst : IVec S800000 32)
    (W : FVec Ideal S128x256 .f32) (n : Fin 50000) (j : Fin 128) :
    val_main_v5 (F := Ideal) h x dst W (ix2 n j)
      = (∑ k : Fin 128, x (ix2 n k) * W (ix2 j (colX k)))
        + ∑ k : Fin 128, val_main_v2 (F := Ideal) h dst (ix2 n k) * W (ix2 j (colAgg k)) := by
  rw [val_main_v5_apply, sum_two_halves]
  have el : ∀ k : Fin 256, lidx_main_v5 (ix2 n j) k = ix2 n k := fun k => funext fun a => Fin.ext (by
    match a with
    | ⟨0, _⟩ => rfl
    | ⟨1, _⟩ => rfl)
  have er : ∀ k : Fin 256, ridx_main_v5 (ix2 n j) k = ix2 k j := fun k => funext fun a => Fin.ext (by
    match a with
    | ⟨0, _⟩ => rfl
    | ⟨1, _⟩ => rfl)
  have ew : ∀ k : Fin 256, idx_main_v4 (ix2 k j) = ix2 j k := fun k => funext fun a => Fin.ext (by
    match a with
    | ⟨0, _⟩ => rfl
    | ⟨1, _⟩ => rfl)
  refine congrArg₂ (· + ·) ?_ ?_
  · refine Finset.sum_congr rfl fun k _ => ?_
    rw [el, er, val_main_v4_apply, ew]
    unfold val_main_v3
    rw [Cert.Rank2.concat_cols_left x _ Facts₀.concatenates_S50000x128_S50000x128_S50000x256_d1 n (colX k) k rfl]
  · refine Finset.sum_congr rfl fun k _ => ?_
    rw [el, er, val_main_v4_apply, ew]
    unfold val_main_v3
    rw [Cert.Rank2.concat_cols_right x _ Facts₀.concatenates_S50000x128_S50000x128_S50000x256_d1 n (colAgg k) k
      (Nat.add_comm _ _)]

/-- The reference's last stage is the node update of the features, the reference's aggregate, the weights and the bias. -/
theorem result_eq (h : FVec Ideal S800000x128 .f32) (x : FVec Ideal S50000x128 .f32) (dst : IVec S800000 32)
    (W : FVec Ideal S128x256 .f32) (b : FVec Ideal S128 .f32) :
    val_main_v9 (F := Ideal) h x dst W b = nodeUpdate x (val_main_v2 (F := Ideal) h dst) W b := by
  funext i
  obtain ⟨n, j, rfl⟩ : ∃ (n : Fin 50000) (j : Fin 128), i = ix2 n j := ⟨i 0, i 1, eq_ix2 i⟩
  rw [nodeUpdate_apply]
  unfold nodeUpdateAt
  have eb : val_main_v7 (F := Ideal) b (ix2 n j) = b (ix1 j) := by
    unfold val_main_v7 val_main_v6
    exact Cert.Rank2.rowBias_apply b Facts₀.bcast_S128_S1x128_1 Facts₀.bcast_S1x128_S50000x128_0_1 n j
  rw [val_main_v9_apply, val_main_v8_apply, contraction_apply, eb, val_main_call0_v0_apply, val_main_call0_cst_apply]
  rfl

end Cert.ReferenceIdeal.RefValue

end
-- ==== Proof.lean ====
/-
  One message-passing layer, tiled, against its plain form.

  Both programs first add the 800000 edge rows into an array of zeros at the rows named by the destination words: the
  aggregate A, one row of 128 entries per node. They form it by the same operation on the same operands, so A is the
  same array in both.

  The plain form joins each node's feature row x(n, ·) and aggregate row A(n, ·) into 256 entries, contracts them with
  row j of the 128 x 256 weight matrix W, adds the bias b(j) and takes the maximum with zero.
  The tiled form cuts the 50000 node rows into 10 tiles of 5000; a tile multiplies its feature block by the first 128
  columns of W (transposed) and its aggregate block by the last 128 columns of W (transposed), adds the two products,
  adds the bias row and takes the maximum with zero.
  On the extended reals both are

      out(n, j) = max( Σ_{k<128} x(n, k) · W(j, k)  +  Σ_{k<128} A(n, k) · W(j, 128 + k)  +  b(j) ,  0 ),

  because a sum over 256 columns is the sum over its first 128 plus the sum over its last 128 — associativity and
  commutativity of addition only, so no entry needs to be finite and the precondition is not used — and because at
  the exact instance a change of float format is the identity and a product into a zero accumulator is the plain
  contraction.

  Modules: NodeUpdate (the function above and the two-halves law), TileValue (a stored tile entry), RegionEntry (the
  arrays the tiles read), TileMeetsUpdate (a stored tile entry is an entry of the node update), KernelValue (the blocks
  cover the array; the kernel's run with its result named), ReferenceValue (the plain form is the node update).
-/
import proofs.«165072_j7387343749430_2_alg».proof.Defs
import proofs.«165072_j7387343749430_2_alg».proof.Proof.Gen.Kernel
import proofs.«165072_j7387343749430_2_alg».proof.Proof.Gen.Kernel.Skeleton
import proofs.«165072_j7387343749430_2_alg».proof.Proof.Gen.Kernel.Launch
import proofs.«165072_j7387343749430_2_alg».proof.Proof.Gen.Kernel.Points
import proofs.«165072_j7387343749430_2_alg».proof.Proof.Gen.Kernel.Frame
import proofs.«165072_j7387343749430_2_alg».proof.Proof.Gen.KernelIdeal
import proofs.«165072_j7387343749430_2_alg».proof.Proof.Gen.KernelIdeal.Skeleton
import proofs.«165072_j7387343749430_2_alg».proof.Proof.Gen.KernelIdeal.Launch
import proofs.«165072_j7387343749430_2_alg».proof.Proof.Gen.KernelIdeal.Points
import proofs.«165072_j7387343749430_2_alg».proof.Proof.Gen.KernelIdeal.Frame
import proofs.«165072_j7387343749430_2_alg».proof.Proof.Gen.ReferenceIdeal
import proofs.«165072_j7387343749430_2_alg».proof.Proof.Gen.Pre_finite_inputs
import proofs.«165072_j7387343749430_2_alg».proof.Proof.Gen.KernelIdeal.Value
import proofs.«165072_j7387343749430_2_alg».proof.Proof.Gen.ReferenceIdeal.Run
import proofs.«165072_j7387343749430_2_alg».proof.Proof.Gen.ReferenceIdeal.Read
import proofs.«165072_j7387343749430_2_alg».proof.Proof.KernelValue
import proofs.«165072_j7387343749430_2_alg».proof.Proof.ReferenceValue
import Idealize.ShloMosaic.Adequacy
import Idealize.ShloMosaic.Init

noncomputable section

namespace Cert.Proof

open Idealize.ShloMosaic Idealize.ShloMosaic.TcCoe Idealize.SL.Sem

/-- The aggregate of the plain form and the aggregate of the tiled form are one array: the same rows added into the
    same zeros at the same destination words. -/
theorem aggregate_agrees (h : FVec Ideal Cert.KernelIdeal.S800000x128 .f32) (dst : IVec Cert.KernelIdeal.S800000 32) :
    Cert.ReferenceIdeal.Read.val_main_v2 (F := Ideal) h dst = Cert.KernelIdeal.Entry.aggregate h dst := rfl

theorem frame_kernel : Cert.frame_Kernel := fun m ρ _ => Cert.Kernel.Gen.frame m ρ

theorem frame_kernelIdeal : Cert.frame_KernelIdeal := fun m ρ _ => Cert.KernelIdeal.Gen.frame m ρ

/-- The plain form has no tiled region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's exact-arithmetic reading is the kernel's own text read at the exact instance: nothing was rewritten. -/
theorem preserves : Cert.preserves_Kernel_KernelIdeal := trivial

/-- From memories that agree on the five arguments both programs end with the node update of those arguments. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq, aggregate_agrees,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
